-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x16, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x16, .f32⟩
  | .hbm, ⟨96, _⟩ => ⟨S1700000x1, .f32⟩
  | .hbm, ⟨97, _⟩ => ⟨S1700000x16, .f32⟩
  | .hbm, ⟨98, _⟩ => ⟨S1700000x16, .f32⟩
  | .hbm, ⟨99, _⟩ => ⟨S_, .f32⟩
  | .hbm, ⟨100, _⟩ => ⟨S100000x16, .f32⟩
  | .hbm, ⟨101, _⟩ => ⟨S1700000x1, .i32⟩
  | .hbm, ⟨102, _⟩ => ⟨S100000x16, .f32⟩
  | .hbm, ⟨103, _⟩ => ⟨S1x16, .f32⟩
  | .hbm, ⟨104, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S10000x16, .f32⟩
  | .local _ .vmem, ⟨27, _⟩ => ⟨S1x16, .f32⟩
  | .local _ .vmem, ⟨28, _⟩ => ⟨S10000x16, .f32⟩
  | .local _ .vmem, ⟨29, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x16, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x16, .f32⟩
  | .hbm, ⟨104, _⟩ => ⟨S1700000x1, .f32⟩
  | .hbm, ⟨105, _⟩ => ⟨S1700000x16, .f32⟩
  | .hbm, ⟨106, _⟩ => ⟨S1700000x16, .f32⟩
  | .hbm, ⟨107, _⟩ => ⟨S_, .f32⟩
  | .hbm, ⟨108, _⟩ => ⟨S100000x16, .f32⟩
  | .hbm, ⟨109, _⟩ => ⟨S1700000x1, .i32⟩
  | .hbm, ⟨110, _⟩ => ⟨S100000x16, .f32⟩
  | .hbm, ⟨111, _⟩ => ⟨S1x16, .f32⟩
  | .hbm, ⟨112, _⟩ => ⟨S100000x16, .f32⟩
  | .hbm, ⟨113, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.Spec.lean ====
/-
  The three whole-array functions a graph-convolution layer is made of, on the extended reals, for any extents.

  A layer takes node features X [M, K], multiplies them by a weight matrix W [K, N], aggregates the products over the
  edges (a gather, a scale and a scatter-add that both programs spell identically and that is never opened here), adds a
  bias row and, except in the last layer, takes the entrywise maximum with 0. This module names the three pieces that the
  two programs spell differently: the matrix product, the addition of one row to every row, and the maximum with 0.
-/
import Idealize.ShloMosaic.Lib.ValueIdx
import Idealize.ShloMosaic.PureOps.Ideal

noncomputable section

namespace Cert.GcnSpec

open Idealize.ShloMosaic Idealize.ShloMosaic.ValueIdx

/-- The matrix product X·W: entry (r, e) is ∑ k, X[r, k] · W[k, e]. -/
def matProd {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply {M K N : ℕ} (x : (⟨2, ![M, K]⟩ : Shape).Idx → EReal) (w : (⟨2, ![K, N]⟩ : Shape).Idx → EReal)
    (r : Fin M) (e : Fin N) : matProd x w (ix2 r e) = ∑ k : Fin K, x (ix2 r k) * w (ix2 k e) := rfl

/-- One row b [1, N] added to every row of A [M, N]: entry (r, e) is A[r, e] + b[0, e]. -/
def addRow {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

theorem addRow_apply {M N : ℕ} (a : (⟨2, ![M, N]⟩ : Shape).Idx → EReal) (b : (⟨2, ![1, N]⟩ : Shape).Idx → EReal)
    (r : Fin M) (e : Fin N) : addRow a b (ix2 r e) = a (ix2 r e) + b (ix2 (0 : Fin 1) e) := rfl

/-- The entrywise maximum with 0. -/
def reluArr {M N : ℕ} (a : (⟨2, ![M, N]⟩ : Shape).Idx → EReal) : (⟨2, ![M, N]⟩ : Shape).Idx → EReal :=
  fun i => max (a i) 0

theorem reluArr_apply {M N : ℕ} (a : (⟨2, ![M, N]⟩ : Shape).Idx → EReal) (i : (⟨2, ![M, N]⟩ : Shape).Idx) :
    reluArr a i = max (a i) 0 := rfl

end Cert.GcnSpec

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Region0.lean ====
/-
  Region 0: the matrix product of the first layer, read off the ten row blocks.

  The row axis of the [100000, 128] left operand is cut into ten blocks of 10000 consecutive rows; grid point t
  holds rows 10000·t … 10000·t + 9999 of it (all 128 columns) and the whole [128, 64] right operand, the same at
  every point. What the point writes back is the [10000, 64] product of the two, accumulated from zero; rounding the
  operands to the narrower format changes nothing on the extended reals. So entry (p, q) of block t is
  ∑ k < 128, X[10000·t + p, k] · W[k, q]: it depends on one row of X and one column of W only, and is entry
  (10000·t + p, q) of the whole product X·W. Row r of the result lies in block r / 10000, so the ten blocks cover the
  [100000, 64] result and the array ends holding X·W.
-/
import proofs.«135846_j87875030876624_1_alg».proof.Proof.Gen.KernelIdeal.Frame
import proofs.«135846_j87875030876624_1_alg».proof.Proof.Spec
import proofs.«135846_j87875030876624_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.ShloMosaic.ValueIdx

/-- The two zero offsets, as the constant function. -/
theorem zero_off0 : (![0, 0] : Fin 2 → Nat) = fun _ => 0 := funext fun a => by fin_cases a <;> rfl

/-- Entry (p, q) of one block's product: row p of the left block against column q of the right operand. -/
theorem prod0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact matmul_plain_zero_apply dot_S10000x128_S128x64_S10000x64_1_0_0_1_n_n rfl none _ _ p q

/-- The block indices over the grid: the left operand's and the result's row block is the point's number, every
    column block is 0, and the right operand stays at block (0, 0). -/
theorem blk_idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

section
variable (V : (c : Dev nD) → (b : Ref sig .tc) → Buf (Elt Ideal) ((c : Thread nD τ).loc b))

/-- The left block at point t is rows 10000·t … of the left array. -/
theorem lhs_blk0 (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_arg0 : S100000x128.Idx → EReal) i := by
  obtain ⟨e0, e1, -, -, -, -⟩ := blk_idx0 t
  unfold iblk0
  rw [View.read_apply]
  show V c main_arg0 (((cfg0.win 0).blk t).view.emb y) = V c main_arg0 i
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The right block at every point is the whole right array. -/
theorem rhs_blk0 (c : Dev nD) (t : Fin cfg0.N) (y : S128x64.Idx) :
    (iblk0 V c 1 t : Vec Ideal S128x64 .f32) y = (V c main_arg2 : S128x64.Idx → EReal) y := by
  obtain ⟨-, -, e2, e3, -, -⟩ := blk_idx0 t
  unfold iblk0
  rw [View.read_apply]
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- What point t writes back is block t of the whole product. -/
theorem flushed0_eq (c : Dev nD) (t : Fin cfg0.N) :
    (dat0 (F := Ideal) V c).flushed 2 t
      = ((cfg0.win 2).blk t).view.read (Elt Ideal)
          (Cert.GcnSpec.matProd (V c main_arg0 : S100000x128.Idx → EReal) (V c main_arg2 : S128x64.Idx → EReal)) := by
  show (cfg0.win 2).cut (grid0.coords t) ((dat0 (F := Ideal) V c).after 2 t) = _
  rw [after0_2]
  unfold out0_2
  rw [View.canon_unit_zero zero_off0]
  simp only [View.ld_unit_zero (S := S10000x128) zero_off0, View.ld_unit_zero (S := S128x64) zero_off0]
  obtain ⟨-, -, -, -, e4, e5⟩ := blk_idx0 t
  have hN : grid0.N = 10 := N_0
  have ht : t.val < 10 := hN ▸ t.isLt
  funext j
  obtain ⟨p, q, rfl⟩ : ∃ (p : Fin 10000) (q : Fin 64), j = ix2 p q := ⟨j 0, j 1, eq_ix2 j⟩
  refine (prod0_apply _ _ p q).trans ?_
  rw [View.read_apply]
  show _ = Cert.GcnSpec.matProd (V c main_arg0 : S100000x128.Idx → EReal) (V c main_arg2 : S128x64.Idx → EReal)
      (((cfg0.win 2).blk t).view.emb (ix2 p q))
  have hemb : ((cfg0.win 2).blk t).view.emb (ix2 p q)
      = (ix2 (⟨10000 * t.val + p.val, by omega⟩ : Fin 100000) q : S100000x64.Idx) := by
    refine funext fun a => Fin.ext ?_
    match a with
    | ⟨0, _⟩ => show win0_2.index t (0 : Fin 2) * 10000 + 1 * p.val = 10000 * t.val + p.val; omega
    | ⟨1, _⟩ => show win0_2.index t (1 : Fin 2) * 64 + 1 * q.val = q.val; omega
  rw [hemb, Cert.GcnSpec.matProd_apply]
  refine Finset.sum_congr rfl fun k _ => ?_
  rw [lhs_blk0 V c t (ix2 p k) (ix2 (⟨10000 * t.val + p.val, by omega⟩ : Fin 100000) k) rfl rfl,
    rhs_blk0 V c t (ix2 k q)]

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row r of the result lies in block r / 10000: the ten blocks cover the array. -/
theorem blocks_cover0 (i : S100000x64.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 64 := (i 1).isLt
  have hlt : (i 0).val / 10000 < grid0.N := by omega
  obtain ⟨-, -, -, -, e4, e5⟩ := blk_idx0 ⟨(i 0).val / 10000, hlt⟩
  have e4' : win0_2.index ⟨(i 0).val / 10000, hlt⟩ (0 : Fin 2) = (i 0).val / 10000 := e4
  refine ⟨⟨(i 0).val / 10000, hlt⟩, flush0_2 _, ?_⟩
  rw [mem_blk0]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    omega

/-- The result array after the ten write-backs is the whole product of the two input arrays as entered. -/
theorem final0 (c : Dev nD) :
    (dat0 (F := Ideal) V c).arrAt 2 cfg0.N = Cert.GcnSpec.matProd (V c main_arg0) (V c main_arg2) :=
  (dat0 (F := Ideal) V c).arrAt_eq_of_cover 2
    (Cert.GcnSpec.matProd (V c main_arg0 : S100000x128.Idx → EReal) (V c main_arg2 : S128x64.Idx → EReal))
    (fun t _ => flushed0_eq V c t) blocks_cover0

end

end Cert.KernelIdeal.Regions

end
-- ==== Proof.Region1.lean ====
/-
  Region 1 of the network: one bias row added to every row of a block, then the entrywise maximum with 0.

  The array a [100000, 64] is cut along its rows into ten blocks of 10000 rows; block t is rows 10000·t … 10000·t + 9999
  at full width. The bias b [1, 64] is one row, and every point reads that same row. At each point the body stores,
  at row p and column q of the block, max (a[10000·t + p, q] + b[0, q], 0): an entry of the result depends on the
  entry of a at the same place and on the bias entry of its column, and on nothing else. The ten blocks tile the
  array (row r lies in block r / 10000), so once all ten are written back the result array is, index by index,
  the maximum with 0 of a with the bias row added to every row.
-/
import proofs.«135846_j87875030876624_1_alg».proof.Proof.Gen.KernelIdeal.Frame
import proofs.«135846_j87875030876624_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.ValueIdx
open Idealize.ShloMosaic.TcCoe

/-- The body's loads and its store start at row 0, column 0 of their buffers. -/
theorem zeroOff1 : (![0, 0] : Fin 2 → Nat) = fun _ => 0 := funext fun a => by fin_cases a <;> rfl

/-- The stored value at row p, column q of a block: the block's entry plus the bias entry of column q, or 0 if that
    is larger. The two shape casts keep the shape, the broadcast repeats the one row, the splat's word is 0. -/
theorem pay1_apply (x0 : Vec Ideal S10000x64 .f32) (x1 : Vec Ideal S1x64 .f32) (p : Fin 10000) (q : Fin 64) :
    k1_pay1 x0 x1 (ix2 p q) = max ((x0 (ix2 p q) : EReal) + (x1 (ix2 (0 : Fin 1) q) : EReal)) 0 := by
  have hb : broadcastTo S10000x64 x1 broadcasts_S1x64_S10000x64 (ix2 p q) = x1 (ix2 (0 : Fin 1) q) :=
    broadcastTo_1b_ab_apply x1 broadcasts_S1x64_S10000x64 p q
  unfold k1_pay1
  show max (shapeCast S10000x64 x0 _ (ix2 p q) + broadcastTo S10000x64 (shapeCast S1x64 x1 _) _ (ix2 p q))
      (Ideal.ofBits .f32 0x00000000#32) = _
  rw [shapeCast_self, shapeCast_self, Ideal.ofBits_zero_f32, hb]

/-- The same at any index j of the block, against any array entry i that holds the block's entry and lies in j's
    column. -/
theorem pay1_point (a : S100000x64.Idx → EReal) (b : S1x64.Idx → EReal)
    (x0 : Vec Ideal S10000x64 .f32) (x1 : Vec Ideal S1x64 .f32) (j : S10000x64.Idx) (i : S100000x64.Idx)
    (h0 : x0 j = a i) (h1 : ∀ q : Fin 64, x1 (ix2 (0 : Fin 1) q) = b (ix2 (0 : Fin 1) q)) (hc : (i 1).val = (j 1).val) :
    k1_pay1 x0 x1 j = Cert.GcnSpec.reluArr (Cert.GcnSpec.addRow a b) i := by
  obtain ⟨p, q, rfl⟩ : ∃ (p : Fin 10000) (q : Fin 64), j = ix2 p q := ⟨j 0, j 1, eq_ix2 j⟩
  obtain ⟨r, e, rfl⟩ : ∃ (r : Fin 100000) (e : Fin 64), i = ix2 r e := ⟨i 0, i 1, eq_ix2 i⟩
  obtain rfl : e = q := Fin.ext hc
  rw [pay1_apply, Cert.GcnSpec.reluArr_apply, Cert.GcnSpec.addRow_apply, h0, h1]

/-- The printed index maps, decided over the ten points: the block of a moves with the result's block, the bias
    block never moves, and the result's block at point t is block t of the rows at full width. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

/-- Point t's block of a holds the entries of a at the places of the result's block. -/
theorem blk1_0_read (c : Dev nD) (t : Fin cfg1.N) (j : S10000x64.Idx) :
    iblk1 V c 0 t j = (V c main_v43 : S100000x64.Idx → EReal) (((cfg1.win 2).blk t).view.emb j) := by
  obtain ⟨e0, e1, -, -, -, -⟩ := idx_facts1 t
  show V c main_v43 (((cfg1.win 0).blk t).view.emb j) = V c main_v43 (((cfg1.win 2).blk t).view.emb j)
  refine congrArg _ ?_
  funext a; apply Fin.ext
  match a with
  | ⟨0, _⟩ => show win1_0.index t (0 : Fin 2) * 10000 + 1 * (j 0).val = win1_2.index t (0 : Fin 2) * 10000 + 1 * (j 0).val; omega
  | ⟨1, _⟩ => show win1_0.index t (1 : Fin 2) * 64 + 1 * (j 1).val = win1_2.index t (1 : Fin 2) * 64 + 1 * (j 1).val; omega

/-- Every point's bias block is the bias row itself. -/
theorem blk1_1_read (c : Dev nD) (t : Fin cfg1.N) (q : Fin 64) :
    iblk1 V c 1 t (ix2 (0 : Fin 1) q) = (V c main_v44 : S1x64.Idx → EReal) (ix2 (0 : Fin 1) q) := by
  obtain ⟨-, -, e2, e3, -, -⟩ := idx_facts1 t
  show V c main_v44 (((cfg1.win 1).blk t).view.emb (ix2 (0 : Fin 1) q)) = V c main_v44 (ix2 (0 : Fin 1) q)
  refine congrArg _ ?_
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- The column of an entry of the result's block is the column inside the block: the block is of full width. -/
theorem blk1_2_col (t : Fin cfg1.N) (j : S10000x64.Idx) :
    ((((cfg1.win 2).blk t).view.emb j : S100000x64.Idx) 1).val = (j 1).val := by
  obtain ⟨-, -, -, -, -, e5⟩ := idx_facts1 t
  show win1_2.index t (1 : Fin 2) * 64 + 1 * (j 1).val = (j 1).val
  omega

/-- WHAT POINT t WRITES BACK is block t of the one whole-array function of a and the bias row as the region finds them. -/
theorem flushed1_eq (c : Dev nD) (t : Fin cfg1.N) :
    (dat1 (F := Ideal) V c).flushed 2 t = ((cfg1.win 2).blk t).view.read (Elt Ideal)
      (Cert.GcnSpec.reluArr (Cert.GcnSpec.addRow (V c main_v43 : S100000x64.Idx → EReal) (V c main_v44 : S1x64.Idx → EReal))) := by
  show (cfg1.win 2).cut (grid1.coords t) ((dat1 V c).after 2 t) = _
  rw [after1_2]
  unfold out1_2
  rw [View.canon_unit_zero zeroOff1]
  simp only [View.ld_unit_zero (S := S10000x64) zeroOff1, View.ld_unit_zero (S := S1x64) zeroOff1]
  funext j
  show k1_pay1 (iblk1 V c 0 t) (iblk1 V c 1 t) j
    = (Cert.GcnSpec.reluArr (Cert.GcnSpec.addRow (V c main_v43 : S100000x64.Idx → EReal) (V c main_v44 : S1x64.Idx → EReal))) (((cfg1.win 2).blk t).view.emb j)
  exact pay1_point (V c main_v43) (V c main_v44) (iblk1 V c 0 t) (iblk1 V c 1 t) j (((cfg1.win 2).blk t).view.emb j)
    (blk1_0_read V c t j) (blk1_1_read V c t) (blk1_2_col t j)

/-- An index of the array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The ten blocks cover the array: row r lies in block r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨t, ht⟩ : ∃ t : Fin cfg1.N, t.val = (i 0).val / 10000 := ⟨⟨(i 0).val / 10000, hlt⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- THE ARRAY after all ten write-backs: the maximum with 0 of a with the bias row added to every row. -/
theorem final1 (c : Dev nD) : (dat1 (F := Ideal) V c).arrAt 2 cfg1.N
    = Cert.GcnSpec.reluArr (Cert.GcnSpec.addRow (V c main_v43) (V c main_v44)) :=
  (dat1 V c).arrAt_eq_of_cover 2 _ (fun t _ => flushed1_eq V c t) cover1

end Cert.KernelIdeal.Regions

end
-- ==== Proof.Region2.lean ====
/-
  Region 2: the matrix product of the second layer, read off the ten row blocks.

  The row axis of the [100000, 64] left operand is cut into ten blocks of 10000 consecutive rows; grid point t
  holds rows 10000·t … 10000·t + 9999 of it (all 64 columns) and the whole [64, 64] right operand, the same at
  every point. What the point writes back is the [10000, 64] product of the two, accumulated from zero; rounding the
  operands to the narrower format changes nothing on the extended reals. So entry (p, q) of block t is
  ∑ k < 64, X[10000·t + p, k] · W[k, q]: it depends on one row of X and one column of W only, and is entry
  (10000·t + p, q) of the whole product X·W. Row r of the result lies in block r / 10000, so the ten blocks cover the
  [100000, 64] result and the array ends holding X·W.
-/
import proofs.«135846_j87875030876624_1_alg».proof.Proof.Gen.KernelIdeal.Frame
import proofs.«135846_j87875030876624_1_alg».proof.Proof.Spec
import proofs.«135846_j87875030876624_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.ShloMosaic.ValueIdx

/-- The two zero offsets, as the constant function. -/
theorem zero_off2 : (![0, 0] : Fin 2 → Nat) = fun _ => 0 := funext fun a => by fin_cases a <;> rfl

/-- Entry (p, q) of one block's product: row p of the left block against column q of the right operand. -/
theorem prod2_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  rw [shapeCast_self]
  exact matmul_plain_zero_apply dot_S10000x64_S64x64_S10000x64_1_0_0_1_n_n rfl none _ _ p q

/-- The block indices over the grid: the left operand's and the result's row block is the point's number, every
    column block is 0, and the right operand stays at block (0, 0). -/
theorem blk_idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

section
variable (V : (c : Dev nD) → (b : Ref sig .tc) → Buf (Elt Ideal) ((c : Thread nD τ).loc b))

/-- The left block at point t is rows 10000·t … of the left array. -/
theorem lhs_blk2 (c : Dev nD) (t : Fin cfg2.N) (y : S10000x64.Idx) (i : S100000x64.Idx)
    (h0 : (i 0).val = 10000 * t.val + (y 0).val) (h1 : (i 1).val = (y 1).val) :
    (iblk2 V c 0 t : Vec Ideal S10000x64 .f32) y = (V c main_v45 : S100000x64.Idx → EReal) i := by
  obtain ⟨e0, e1, -, -, -, -⟩ := blk_idx2 t
  unfold iblk2
  rw [View.read_apply]
  show V c main_v45 (((cfg2.win 0).blk t).view.emb y) = V c main_v45 i
  refine congrArg _ (funext fun a => Fin.ext ?_)
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- The right block at every point is the whole right array. -/
theorem rhs_blk2 (c : Dev nD) (t : Fin cfg2.N) (y : S64x64.Idx) :
    (iblk2 V c 1 t : Vec Ideal S64x64 .f32) y = (V c main_arg4 : S64x64.Idx → EReal) y := by
  obtain ⟨-, -, e2, e3, -, -⟩ := blk_idx2 t
  unfold iblk2
  rw [View.read_apply]
  show V c main_arg4 (((cfg2.win 1).blk t).view.emb y) = V c main_arg4 y
  refine congrArg _ (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- What point t writes back is block t of the whole product. -/
theorem flushed2_eq (c : Dev nD) (t : Fin cfg2.N) :
    (dat2 (F := Ideal) V c).flushed 2 t
      = ((cfg2.win 2).blk t).view.read (Elt Ideal)
          (Cert.GcnSpec.matProd (V c main_v45 : S100000x64.Idx → EReal) (V c main_arg4 : S64x64.Idx → EReal)) := by
  show (cfg2.win 2).cut (grid2.coords t) ((dat2 (F := Ideal) V c).after 2 t) = _
  rw [after2_2]
  unfold out2_2
  rw [View.canon_unit_zero zero_off2]
  simp only [View.ld_unit_zero (S := S10000x64) zero_off2, View.ld_unit_zero (S := S64x64) zero_off2]
  obtain ⟨-, -, -, -, e4, e5⟩ := blk_idx2 t
  have hN : grid2.N = 10 := N_2
  have ht : t.val < 10 := hN ▸ t.isLt
  funext j
  obtain ⟨p, q, rfl⟩ : ∃ (p : Fin 10000) (q : Fin 64), j = ix2 p q := ⟨j 0, j 1, eq_ix2 j⟩
  refine (prod2_apply _ _ p q).trans ?_
  rw [View.read_apply]
  show _ = Cert.GcnSpec.matProd (V c main_v45 : S100000x64.Idx → EReal) (V c main_arg4 : S64x64.Idx → EReal)
      (((cfg2.win 2).blk t).view.emb (ix2 p q))
  have hemb : ((cfg2.win 2).blk t).view.emb (ix2 p q)
      = (ix2 (⟨10000 * t.val + p.val, by omega⟩ : Fin 100000) q : S100000x64.Idx) := by
    refine funext fun a => Fin.ext ?_
    match a with
    | ⟨0, _⟩ => show win2_2.index t (0 : Fin 2) * 10000 + 1 * p.val = 10000 * t.val + p.val; omega
    | ⟨1, _⟩ => show win2_2.index t (1 : Fin 2) * 64 + 1 * q.val = q.val; omega
  rw [hemb, Cert.GcnSpec.matProd_apply]
  refine Finset.sum_congr rfl fun k _ => ?_
  rw [lhs_blk2 V c t (ix2 p k) (ix2 (⟨10000 * t.val + p.val, by omega⟩ : Fin 100000) k) rfl rfl,
    rhs_blk2 V c t (ix2 k q)]

/-- An index of the result array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v46).slice (win2_2.rect t)).set ↔ _
  rw [View.set_slice_whole, Rect.mem_set_unit]
  exact Iff.rfl

/-- Row r of the result lies in block r / 10000: the ten blocks cover the array. -/
theorem blocks_cover2 (i : S100000x64.Idx) :
    ∃ t : Fin cfg2.N, (cfg2.win 2).flush t = true ∧ i ∈ ((cfg2.win 2).blk t).view.set := by
  have hN : grid2.N = 10 := N_2
  have hi0 : (i 0).val < 100000 := (i 0).isLt
  have hi1 : (i 1).val < 64 := (i 1).isLt
  have hlt : (i 0).val / 10000 < grid2.N := by omega
  obtain ⟨-, -, -, -, e4, e5⟩ := blk_idx2 ⟨(i 0).val / 10000, hlt⟩
  have e4' : win2_2.index ⟨(i 0).val / 10000, hlt⟩ (0 : Fin 2) = (i 0).val / 10000 := e4
  refine ⟨⟨(i 0).val / 10000, hlt⟩, flush2_2 _, ?_⟩
  rw [mem_blk2]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    omega
  | ⟨1, _⟩ =>
    show win2_2.index ⟨(i 0).val / 10000, hlt⟩ (1 : Fin 2) * 64 ≤ (i 1).val
      ∧ (i 1).val < win2_2.index ⟨(i 0).val / 10000, hlt⟩ (1 : Fin 2) * 64 + 64
    omega

/-- The result array after the ten write-backs is the whole product of the two input arrays as entered. -/
theorem final2 (c : Dev nD) :
    (dat2 (F := Ideal) V c).arrAt 2 cfg2.N = Cert.GcnSpec.matProd (V c main_v45) (V c main_arg4) :=
  (dat2 (F := Ideal) V c).arrAt_eq_of_cover 2
    (Cert.GcnSpec.matProd (V c main_v45 : S100000x64.Idx → EReal) (V c main_arg4 : S64x64.Idx → EReal))
    (fun t _ => flushed2_eq V c t) blocks_cover2

end

end Cert.KernelIdeal.Regions

end
-- ==== Proof.Region3.lean ====
/-
  Region 3 of the network: one bias row added to every row of a block, then the entrywise maximum with 0.

  The array a [100000, 64] is cut along its rows into ten blocks of 10000 rows; block t is rows 10000·t … 10000·t + 9999
  at full width. The bias b [1, 64] is one row, and every point reads that same row. At each point the body stores,
  at row p and column q of the block, max (a[10000·t + p, q] + b[0, q], 0): an entry of the result depends on the
  entry of a at the same place and on the bias entry of its column, and on nothing else. The ten blocks tile the
  array (row r lies in block r / 10000), so once all ten are written back the result array is, index by index,
  the maximum with 0 of a with the bias row added to every row.
-/
import proofs.«135846_j87875030876624_1_alg».proof.Proof.Gen.KernelIdeal.Frame
import proofs.«135846_j87875030876624_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.ValueIdx
open Idealize.ShloMosaic.TcCoe

/-- The body's loads and its store start at row 0, column 0 of their buffers. -/
theorem zeroOff3 : (![0, 0] : Fin 2 → Nat) = fun _ => 0 := funext fun a => by fin_cases a <;> rfl

/-- The stored value at row p, column q of a block: the block's entry plus the bias entry of column q, or 0 if that
    is larger. The two shape casts keep the shape, the broadcast repeats the one row, the splat's word is 0. -/
theorem pay3_apply (x0 : Vec Ideal S10000x64 .f32) (x1 : Vec Ideal S1x64 .f32) (p : Fin 10000) (q : Fin 64) :
    k3_pay1 x0 x1 (ix2 p q) = max ((x0 (ix2 p q) : EReal) + (x1 (ix2 (0 : Fin 1) q) : EReal)) 0 := by
  have hb : broadcastTo S10000x64 x1 broadcasts_S1x64_S10000x64 (ix2 p q) = x1 (ix2 (0 : Fin 1) q) :=
    broadcastTo_1b_ab_apply x1 broadcasts_S1x64_S10000x64 p q
  unfold k3_pay1
  show max (shapeCast S10000x64 x0 _ (ix2 p q) + broadcastTo S10000x64 (shapeCast S1x64 x1 _) _ (ix2 p q))
      (Ideal.ofBits .f32 0x00000000#32) = _
  rw [shapeCast_self, shapeCast_self, Ideal.ofBits_zero_f32, hb]

/-- The same at any index j of the block, against any array entry i that holds the block's entry and lies in j's
    column. -/
theorem pay3_point (a : S100000x64.Idx → EReal) (b : S1x64.Idx → EReal)
    (x0 : Vec Ideal S10000x64 .f32) (x1 : Vec Ideal S1x64 .f32) (j : S10000x64.Idx) (i : S100000x64.Idx)
    (h0 : x0 j = a i) (h1 : ∀ q : Fin 64, x1 (ix2 (0 : Fin 1) q) = b (ix2 (0 : Fin 1) q)) (hc : (i 1).val = (j 1).val) :
    k3_pay1 x0 x1 j = Cert.GcnSpec.reluArr (Cert.GcnSpec.addRow a b) i := by
  obtain ⟨p, q, rfl⟩ : ∃ (p : Fin 10000) (q : Fin 64), j = ix2 p q := ⟨j 0, j 1, eq_ix2 j⟩
  obtain ⟨r, e, rfl⟩ : ∃ (r : Fin 100000) (e : Fin 64), i = ix2 r e := ⟨i 0, i 1, eq_ix2 i⟩
  obtain rfl : e = q := Fin.ext hc
  rw [pay3_apply, Cert.GcnSpec.reluArr_apply, Cert.GcnSpec.addRow_apply, h0, h1]

/-- The printed index maps, decided over the ten points: the block of a moves with the result's block, the bias
    block never moves, and the result's block at point t is block t of the rows at full width. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

variable (V : (c : Dev nD) → (b : Ref sig .tc) → Buf (Elt Ideal) ((c : Thread nD τ).loc b))

/-- Point t's block of a holds the entries of a at the places of the result's block. -/
theorem blk3_0_read (c : Dev nD) (t : Fin cfg3.N) (j : S10000x64.Idx) :
    iblk3 V c 0 t j = (V c main_v59 : S100000x64.Idx → EReal) (((cfg3.win 2).blk t).view.emb j) := by
  obtain ⟨e0, e1, -, -, -, -⟩ := idx_facts3 t
  show V c main_v59 (((cfg3.win 0).blk t).view.emb j) = V c main_v59 (((cfg3.win 2).blk t).view.emb j)
  refine congrArg _ ?_
  funext a; apply Fin.ext
  match a with
  | ⟨0, _⟩ => show win3_0.index t (0 : Fin 2) * 10000 + 1 * (j 0).val = win3_2.index t (0 : Fin 2) * 10000 + 1 * (j 0).val; omega
  | ⟨1, _⟩ => show win3_0.index t (1 : Fin 2) * 64 + 1 * (j 1).val = win3_2.index t (1 : Fin 2) * 64 + 1 * (j 1).val; omega

/-- Every point's bias block is the bias row itself. -/
theorem blk3_1_read (c : Dev nD) (t : Fin cfg3.N) (q : Fin 64) :
    iblk3 V c 1 t (ix2 (0 : Fin 1) q) = (V c main_v60 : S1x64.Idx → EReal) (ix2 (0 : Fin 1) q) := by
  obtain ⟨-, -, e2, e3, -, -⟩ := idx_facts3 t
  show V c main_v60 (((cfg3.win 1).blk t).view.emb (ix2 (0 : Fin 1) q)) = V c main_v60 (ix2 (0 : Fin 1) q)
  refine congrArg _ ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- The column of an entry of the result's block is the column inside the block: the block is of full width. -/
theorem blk3_2_col (t : Fin cfg3.N) (j : S10000x64.Idx) :
    ((((cfg3.win 2).blk t).view.emb j : S100000x64.Idx) 1).val = (j 1).val := by
  obtain ⟨-, -, -, -, -, e5⟩ := idx_facts3 t
  show win3_2.index t (1 : Fin 2) * 64 + 1 * (j 1).val = (j 1).val
  omega

/-- WHAT POINT t WRITES BACK is block t of the one whole-array function of a and the bias row as the region finds them. -/
theorem flushed3_eq (c : Dev nD) (t : Fin cfg3.N) :
    (dat3 (F := Ideal) V c).flushed 2 t = ((cfg3.win 2).blk t).view.read (Elt Ideal)
      (Cert.GcnSpec.reluArr (Cert.GcnSpec.addRow (V c main_v59 : S100000x64.Idx → EReal) (V c main_v60 : S1x64.Idx → EReal))) := by
  show (cfg3.win 2).cut (grid3.coords t) ((dat3 V c).after 2 t) = _
  rw [after3_2]
  unfold out3_2
  rw [View.canon_unit_zero zeroOff3]
  simp only [View.ld_unit_zero (S := S10000x64) zeroOff3, View.ld_unit_zero (S := S1x64) zeroOff3]
  funext j
  show k3_pay1 (iblk3 V c 0 t) (iblk3 V c 1 t) j
    = (Cert.GcnSpec.reluArr (Cert.GcnSpec.addRow (V c main_v59 : S100000x64.Idx → EReal) (V c main_v60 : S1x64.Idx → EReal))) (((cfg3.win 2).blk t).view.emb j)
  exact pay3_point (V c main_v59) (V c main_v60) (iblk3 V c 0 t) (iblk3 V c 1 t) j (((cfg3.win 2).blk t).view.emb j)
    (blk3_0_read V c t j) (blk3_1_read V c t) (blk3_2_col t j)

/-- An index of the array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- The ten blocks cover the array: row r lies in block r / 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have hlt : (i 0).val / 10000 < cfg3.N := by rw [hN]; omega
  obtain ⟨t, ht⟩ : ∃ t : Fin cfg3.N, t.val = (i 0).val / 10000 := ⟨⟨(i 0).val / 10000, hlt⟩, rfl⟩
  obtain ⟨-, -, -, -, e4, e5⟩ := idx_facts3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- THE ARRAY after all ten write-backs: the maximum with 0 of a with the bias row added to every row. -/
theorem final3 (c : Dev nD) : (dat3 (F := Ideal) V c).arrAt 2 cfg3.N
    = Cert.GcnSpec.reluArr (Cert.GcnSpec.addRow (V c main_v59) (V c main_v60)) :=
  (dat3 V c).arrAt_eq_of_cover 2 _ (fun t _ => flushed3_eq V c t) cover3

end Cert.KernelIdeal.Regions

end
-- ==== Proof.Region4.lean ====
/-
  Region 4: the matrix product of the third layer, read off the ten row blocks.

  The row axis of the [100000, 64] left operand is cut into ten blocks of 10000 consecutive rows; grid point t
  holds rows 10000·t … 10000·t + 9999 of it (all 64 columns) and the whole [64, 16] right operand, the same at
  every point. What the point writes back is the [10000, 16] product of the two, accumulated from zero; rounding the
  operands to the narrower format changes nothing on the extended reals. So entry (p, q) of block t is
  ∑ k < 64, X[10000·t + p, k] · W[k, q]: it depends on one row of X and one column of W only, and is entry
  (10000·t + p, q) of the whole product X·W. Row r of the result lies in block r / 10000, so the ten blocks cover the
  [100000, 16] result and the array ends holding X·W.
-/
import proofs.«135846_j87875030876624_1_alg».proof.Proof.Gen.KernelIdeal.Frame
import proofs.«135846_j87875030876624_1_alg».proof.Proof.Spec
import proofs.«135846_j87875030876624_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.ShloMosaic.ValueIdx

/-- The two zero offsets, as the constant function. -/
theorem zero_off4 : (![0, 0] : Fin 2 → Nat) = fun _ => 0 := funext fun a => by fin_cases a <;> rfl

/-- Entry (p, q) of one block's product: row p of the left block against column q of the right operand. -/
theorem prod4_apply (x0 : Vec Ideal S10000x64 .f32) (x1 : Vec Ideal S64x16 .f32) (p : Fin 10000) (q : Fin 16) :
    k4_pay1 (F := Ideal) x0 x1 (ix2 p q) = ∑ k : Fin 64, x0 (ix2 p k) * x1 (ix2 k q) := by
  unfold k4_pay1
  rw [shapeCast_self]
  exact matmul_plain_zero_apply dot_S10000x64_S64x16_S10000x16_1_0_0_1_n_n rfl none _ _ p q

/-- The block indices over the grid: the left operand's and the result's row block is the point's number, every
    column block is 0, and the right operand stays at block (0, 0). -/
theorem blk_idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

section
variable (V : (c : Dev nD) → (b : Ref sig .tc) → Buf (Elt Ideal) ((c : Thread nD τ).loc b))

/-- The left block at point t is rows 10000·t … of the left array. -/
theorem lhs_blk4 (c : Dev nD) (t : Fin cfg4.N) (y : S10000x64.Idx) (i : S100000x64.Idx)
    (h0 : (i 0).val = 10000 * t.val + (y 0).val) (h1 : (i 1).val = (y 1).val) :
    (iblk4 V c 0 t : Vec Ideal S10000x64 .f32) y = (V c main_v61 : S100000x64.Idx → EReal) i := by
  obtain ⟨e0, e1, -, -, -, -⟩ := blk_idx4 t
  unfold iblk4
  rw [View.read_apply]
  show V c main_v61 (((cfg4.win 0).blk t).view.emb y) = V c main_v61 i
  refine congrArg _ (funext fun a => Fin.ext ?_)
  match a with
  | ⟨0, _⟩ => show win4_0.index t (0 : Fin 2) * 10000 + 1 * (y 0).val = (i 0).val; omega
  | ⟨1, _⟩ => show win4_0.index t (1 : Fin 2) * 64 + 1 * (y 1).val = (i 1).val; omega

/-- The right block at every point is the whole right array. -/
theorem rhs_blk4 (c : Dev nD) (t : Fin cfg4.N) (y : S64x16.Idx) :
    (iblk4 V c 1 t : Vec Ideal S64x16 .f32) y = (V c main_arg6 : S64x16.Idx → EReal) y := by
  obtain ⟨-, -, e2, e3, -, -⟩ := blk_idx4 t
  unfold iblk4
  rw [View.read_apply]
  show V c main_arg6 (((cfg4.win 1).blk t).view.emb y) = V c main_arg6 y
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 16 + 1 * (y 1).val = (y 1).val; omega

/-- What point t writes back is block t of the whole product. -/
theorem flushed4_eq (c : Dev nD) (t : Fin cfg4.N) :
    (dat4 (F := Ideal) V c).flushed 2 t
      = ((cfg4.win 2).blk t).view.read (Elt Ideal)
          (Cert.GcnSpec.matProd (V c main_v61 : S100000x64.Idx → EReal) (V c main_arg6 : S64x16.Idx → EReal)) := by
  show (cfg4.win 2).cut (grid4.coords t) ((dat4 (F := Ideal) V c).after 2 t) = _
  rw [after4_2]
  unfold out4_2
  rw [View.canon_unit_zero zero_off4]
  simp only [View.ld_unit_zero (S := S10000x64) zero_off4, View.ld_unit_zero (S := S64x16) zero_off4]
  obtain ⟨-, -, -, -, e4, e5⟩ := blk_idx4 t
  have hN : grid4.N = 10 := N_4
  have ht : t.val < 10 := hN ▸ t.isLt
  funext j
  obtain ⟨p, q, rfl⟩ : ∃ (p : Fin 10000) (q : Fin 16), j = ix2 p q := ⟨j 0, j 1, eq_ix2 j⟩
  refine (prod4_apply _ _ p q).trans ?_
  rw [View.read_apply]
  show _ = Cert.GcnSpec.matProd (V c main_v61 : S100000x64.Idx → EReal) (V c main_arg6 : S64x16.Idx → EReal)
      (((cfg4.win 2).blk t).view.emb (ix2 p q))
  have hemb : ((cfg4.win 2).blk t).view.emb (ix2 p q)
      = (ix2 (⟨10000 * t.val + p.val, by omega⟩ : Fin 100000) q : S100000x16.Idx) := by
    refine funext fun a => Fin.ext ?_
    match a with
    | ⟨0, _⟩ => show win4_2.index t (0 : Fin 2) * 10000 + 1 * p.val = 10000 * t.val + p.val; omega
    | ⟨1, _⟩ => show win4_2.index t (1 : Fin 2) * 16 + 1 * q.val = q.val; omega
  rw [hemb, Cert.GcnSpec.matProd_apply]
  refine Finset.sum_congr rfl fun k _ => ?_
  rw [lhs_blk4 V c t (ix2 p k) (ix2 (⟨10000 * t.val + p.val, by omega⟩ : Fin 100000) k) rfl rfl,
    rhs_blk4 V c t (ix2 k q)]

/-- An index of the result array is in point t's block iff each coordinate is in the block's range on its axis. -/
theorem mem_blk4 (t : Fin cfg4.N) (i : S100000x16.Idx) :
    i ∈ ((cfg4.win 2).blk t).view.set ↔ ∀ a : Fin 2, win4_2.index t a * S10000x16.size a ≤ (i a).val
      ∧ (i a).val < win4_2.index t a * S10000x16.size a + S10000x16.size a := by
  show i ∈ ((View.whole main_v62).slice (win4_2.rect t)).set ↔ _
  rw [View.set_slice_whole, Rect.mem_set_unit]
  exact Iff.rfl

/-- Row r of the result lies in block r / 10000: the ten blocks cover the array. -/
theorem blocks_cover4 (i : S100000x16.Idx) :
    ∃ t : Fin cfg4.N, (cfg4.win 2).flush t = true ∧ i ∈ ((cfg4.win 2).blk t).view.set := by
  have hN : grid4.N = 10 := N_4
  have hi0 : (i 0).val < 100000 := (i 0).isLt
  have hi1 : (i 1).val < 16 := (i 1).isLt
  have hlt : (i 0).val / 10000 < grid4.N := by omega
  obtain ⟨-, -, -, -, e4, e5⟩ := blk_idx4 ⟨(i 0).val / 10000, hlt⟩
  have e4' : win4_2.index ⟨(i 0).val / 10000, hlt⟩ (0 : Fin 2) = (i 0).val / 10000 := e4
  refine ⟨⟨(i 0).val / 10000, hlt⟩, flush4_2 _, ?_⟩
  rw [mem_blk4]
  intro a
  match a with
  | ⟨0, _⟩ =>
    show win4_2.index ⟨(i 0).val / 10000, hlt⟩ (0 : Fin 2) * 10000 ≤ (i 0).val
      ∧ (i 0).val < win4_2.index ⟨(i 0).val / 10000, hlt⟩ (0 : Fin 2) * 10000 + 10000
    omega
  | ⟨1, _⟩ =>
    show win4_2.index ⟨(i 0).val / 10000, hlt⟩ (1 : Fin 2) * 16 ≤ (i 1).val
      ∧ (i 1).val < win4_2.index ⟨(i 0).val / 10000, hlt⟩ (1 : Fin 2) * 16 + 16
    omega

/-- The result array after the ten write-backs is the whole product of the two input arrays as entered. -/
theorem final4 (c : Dev nD) :
    (dat4 (F := Ideal) V c).arrAt 2 cfg4.N = Cert.GcnSpec.matProd (V c main_v61) (V c main_arg6) :=
  (dat4 (F := Ideal) V c).arrAt_eq_of_cover 2
    (Cert.GcnSpec.matProd (V c main_v61 : S100000x64.Idx → EReal) (V c main_arg6 : S64x16.Idx → EReal))
    (fun t _ => flushed4_eq V c t) blocks_cover4

end

end Cert.KernelIdeal.Regions

end
-- ==== Proof.Region5.lean ====
/-
  Region 5 of the network: one bias row added to every row of a block (the last layer: no maximum follows).

  The array a [100000, 16] is cut along its rows into ten blocks of 10000 rows; block t is rows 10000·t … 10000·t + 9999
  at full width. The bias b [1, 16] is one row, and every point reads that same row. At each point the body stores,
  at row p and column q of the block, a[10000·t + p, q] + b[0, q]: an entry of the result depends on the entry of a
  at the same place and on the bias entry of its column, and on nothing else. The ten blocks tile the array (row r
  lies in block r / 10000), so once all ten are written back the result array is, index by index, a with the bias
  row added to every row.
-/
import proofs.«135846_j87875030876624_1_alg».proof.Proof.Gen.KernelIdeal.Frame
import proofs.«135846_j87875030876624_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.ValueIdx
open Idealize.ShloMosaic.TcCoe

/-- The body's loads and its store start at row 0, column 0 of their buffers. -/
theorem zeroOff5 : (![0, 0] : Fin 2 → Nat) = fun _ => 0 := funext fun a => by fin_cases a <;> rfl

/-- The stored value at row p, column q of a block: the block's entry plus the bias entry of column q. The two
    shape casts keep the shape and the broadcast repeats the one row. -/
theorem pay5_apply (x0 : Vec Ideal S10000x16 .f32) (x1 : Vec Ideal S1x16 .f32) (p : Fin 10000) (q : Fin 16) :
    k5_pay1 x0 x1 (ix2 p q) = (x0 (ix2 p q) : EReal) + (x1 (ix2 (0 : Fin 1) q) : EReal) := by
  have hb : broadcastTo S10000x16 x1 broadcasts_S1x16_S10000x16 (ix2 p q) = x1 (ix2 (0 : Fin 1) q) :=
    broadcastTo_1b_ab_apply x1 broadcasts_S1x16_S10000x16 p q
  unfold k5_pay1
  show shapeCast S10000x16 x0 _ (ix2 p q) + broadcastTo S10000x16 (shapeCast S1x16 x1 _) _ (ix2 p q) = _
  rw [shapeCast_self, shapeCast_self, hb]

/-- The same at any index j of the block, against any array entry i that holds the block's entry and lies in j's
    column. -/
theorem pay5_point (a : S100000x16.Idx → EReal) (b : S1x16.Idx → EReal)
    (x0 : Vec Ideal S10000x16 .f32) (x1 : Vec Ideal S1x16 .f32) (j : S10000x16.Idx) (i : S100000x16.Idx)
    (h0 : x0 j = a i) (h1 : ∀ q : Fin 16, x1 (ix2 (0 : Fin 1) q) = b (ix2 (0 : Fin 1) q)) (hc : (i 1).val = (j 1).val) :
    k5_pay1 x0 x1 j = Cert.GcnSpec.addRow a b i := by
  obtain ⟨p, q, rfl⟩ : ∃ (p : Fin 10000) (q : Fin 16), j = ix2 p q := ⟨j 0, j 1, eq_ix2 j⟩
  obtain ⟨r, e, rfl⟩ : ∃ (r : Fin 100000) (e : Fin 16), i = ix2 r e := ⟨i 0, i 1, eq_ix2 i⟩
  obtain rfl : e = q := Fin.ext hc
  rw [pay5_apply, Cert.GcnSpec.addRow_apply, h0, h1]

/-- The printed index maps, decided over the ten points: the block of a moves with the result's block, the bias
    block never moves, and the result's block at point t is block t of the rows at full width. -/
theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

variable (V : (c : Dev nD) → (b : Ref sig .tc) → Buf (Elt Ideal) ((c : Thread nD τ).loc b))

/-- Point t's block of a holds the entries of a at the places of the result's block. -/
theorem blk5_0_read (c : Dev nD) (t : Fin cfg5.N) (j : S10000x16.Idx) :
    iblk5 V c 0 t j = (V c main_v75 : S100000x16.Idx → EReal) (((cfg5.win 2).blk t).view.emb j) := by
  obtain ⟨e0, e1, -, -, -, -⟩ := idx_facts5 t
  show V c main_v75 (((cfg5.win 0).blk t).view.emb j) = V c main_v75 (((cfg5.win 2).blk t).view.emb j)
  refine congrArg _ ?_
  funext a; apply Fin.ext
  match a with
  | ⟨0, _⟩ => show win5_0.index t (0 : Fin 2) * 10000 + 1 * (j 0).val = win5_2.index t (0 : Fin 2) * 10000 + 1 * (j 0).val; omega
  | ⟨1, _⟩ => show win5_0.index t (1 : Fin 2) * 16 + 1 * (j 1).val = win5_2.index t (1 : Fin 2) * 16 + 1 * (j 1).val; omega

/-- Every point's bias block is the bias row itself. -/
theorem blk5_1_read (c : Dev nD) (t : Fin cfg5.N) (q : Fin 16) :
    iblk5 V c 1 t (ix2 (0 : Fin 1) q) = (V c main_v76 : S1x16.Idx → EReal) (ix2 (0 : Fin 1) q) := by
  obtain ⟨-, -, e2, e3, -, -⟩ := idx_facts5 t
  show V c main_v76 (((cfg5.win 1).blk t).view.emb (ix2 (0 : Fin 1) q)) = V c main_v76 (ix2 (0 : Fin 1) q)
  refine congrArg _ ?_
  funext a; apply Fin.ext
  match a with
  | ⟨0, _⟩ => show win5_1.index t (0 : Fin 2) * 1 + 1 * 0 = 0; omega
  | ⟨1, _⟩ => show win5_1.index t (1 : Fin 2) * 16 + 1 * q.val = q.val; omega

/-- The column of an entry of the result's block is the column inside the block: the block is of full width. -/
theorem blk5_2_col (t : Fin cfg5.N) (j : S10000x16.Idx) :
    ((((cfg5.win 2).blk t).view.emb j : S100000x16.Idx) 1).val = (j 1).val := by
  obtain ⟨-, -, -, -, -, e5⟩ := idx_facts5 t
  show win5_2.index t (1 : Fin 2) * 16 + 1 * (j 1).val = (j 1).val
  omega

/-- WHAT POINT t WRITES BACK is block t of the one whole-array function of a and the bias row as the region finds them. -/
theorem flushed5_eq (c : Dev nD) (t : Fin cfg5.N) :
    (dat5 (F := Ideal) V c).flushed 2 t = ((cfg5.win 2).blk t).view.read (Elt Ideal)
      (Cert.GcnSpec.addRow (V c main_v75 : S100000x16.Idx → EReal) (V c main_v76 : S1x16.Idx → EReal)) := by
  show (cfg5.win 2).cut (grid5.coords t) ((dat5 V c).after 2 t) = _
  rw [after5_2]
  unfold out5_2
  rw [View.canon_unit_zero zeroOff5]
  simp only [View.ld_unit_zero (S := S10000x16) zeroOff5, View.ld_unit_zero (S := S1x16) zeroOff5]
  funext j
  show k5_pay1 (iblk5 V c 0 t) (iblk5 V c 1 t) j
    = (Cert.GcnSpec.addRow (V c main_v75 : S100000x16.Idx → EReal) (V c main_v76 : S1x16.Idx → EReal)) (((cfg5.win 2).blk t).view.emb j)
  exact pay5_point (V c main_v75) (V c main_v76) (iblk5 V c 0 t) (iblk5 V c 1 t) j (((cfg5.win 2).blk t).view.emb j)
    (blk5_0_read V c t j) (blk5_1_read V c t) (blk5_2_col t j)

/-- An index of the array is in point t's block iff each coordinate is in the block's range on its axis. -/
theorem mem_blk5 (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v77).slice (win5_2.rect t)).set ↔ _
  rw [View.set_slice_whole, Rect.mem_set_unit]
  exact Iff.rfl

/-- The ten blocks cover the array: row r lies in block r / 10000. -/
theorem cover5 (i : S100000x16.Idx) :
    ∃ t : Fin cfg5.N, (cfg5.win 2).flush t = true ∧ i ∈ ((cfg5.win 2).blk t).view.set := by
  have hi0 : (i 0).val < 100000 := (i 0).isLt
  have hi1 : (i 1).val < 16 := (i 1).isLt
  have hN : cfg5.N = 10 := N_5
  have hlt : (i 0).val / 10000 < cfg5.N := by rw [hN]; omega
  obtain ⟨t, ht⟩ : ∃ t : Fin cfg5.N, t.val = (i 0).val / 10000 := ⟨⟨(i 0).val / 10000, hlt⟩, rfl⟩
  obtain ⟨-, -, -, -, e4, e5⟩ := idx_facts5 t
  refine ⟨t, flush5_2 t, ?_⟩
  rw [mem_blk5]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 16 ≤ (i 1).val ∧ (i 1).val < win5_2.index t (1 : Fin 2) * 16 + 16
    omega

/-- THE ARRAY after all ten write-backs: a with the bias row added to every row. -/
theorem final5 (c : Dev nD) : (dat5 (F := Ideal) V c).arrAt 2 cfg5.N
    = Cert.GcnSpec.addRow (V c main_v75) (V c main_v76) :=
  (dat5 V c).arrAt_eq_of_cover 2 _ (fun t _ => flushed5_eq V c t) cover5

end Cert.KernelIdeal.Regions

end
-- ==== Proof.KFold.lean ====
/-
  The kernel program's result array as one function of its eight arguments.

  The program computes a three-layer graph convolution. From the edge list it builds, once, the source and target node of
  every edge (the listed edges followed by one self-loop per node), the degree of every node, and the symmetric
  normalisation weight of every edge, norm = dinv[src] · dinv[dst] with dinv = deg^(-1/2) where deg > 0 and 0 elsewhere.
  Each layer then multiplies the node features by its weight matrix (a pipelined region: ten row blocks), gathers the
  product at every edge's source, scales it by the edge's weight and sums it into the edge's target (host operations),
  and adds the bias row and, in the first two layers, takes the maximum with 0 (a second pipelined region).
  Folding the segments of the run over the launch memory, the result array is the composition of these nine steps.
  The aggregation over the edges is kept as the host operations spell it and is never opened.
-/
import proofs.«135846_j87875030876624_1_alg».proof.Proof.Gen.KernelIdeal.Frame
import proofs.«135846_j87875030876624_1_alg».proof.Proof.Spec
import proofs.«135846_j87875030876624_1_alg».proof.Proof.Region0
import proofs.«135846_j87875030876624_1_alg».proof.Proof.Region1
import proofs.«135846_j87875030876624_1_alg».proof.Proof.Region2
import proofs.«135846_j87875030876624_1_alg».proof.Proof.Region3
import proofs.«135846_j87875030876624_1_alg».proof.Proof.Region4
import proofs.«135846_j87875030876624_1_alg».proof.Proof.Region5
import Idealize.ShloMosaic.Lib.StableHlo.Run
import Idealize.ShloMosaic.PureOps.Ideal

set_option maxRecDepth 16384

noncomputable section

namespace Cert.KernelIdeal.Fold

open Cert.KernelIdeal Cert.KernelIdeal.Gen Cert.KernelIdeal.Regions Cert.GcnSpec
open Idealize.ShloMosaic Idealize.ShloMosaic.TcCoe Idealize.SL.Sem Idealize.ShloMosaic.StableHlo

/-! ## The host operations' chains, as the program spells them -/

/-- Row 0 of the edge list (the sources), followed by the self-loops 0, 1, …, n − 1. -/
def srcT (ei : (⟨S2x1600000, .i32⟩ : BufTy).Contents (Elt Ideal)) : (⟨S1700000, .i32⟩ : BufTy).Contents (Elt Ideal) :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- Row 1 of the edge list (the targets), followed by the self-loops. -/
def dstT (ei : (⟨S2x1600000, .i32⟩ : BufTy).Contents (Elt Ideal)) : (⟨S1700000, .i32⟩ : BufTy).Contents (Elt Ideal) :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- A negative index counts from the end: v + n where v < 0, v elsewhere. -/
def wrapT (v : (⟨S1700000, .i32⟩ : BufTy).Contents (Elt Ideal)) : (⟨S1700000, .i32⟩ : BufTy).Contents (Elt Ideal) :=
  select (cmpi .slt v (broadcastInDim S1700000 ![] bcast_S_S1700000 (constantI S_ 32 0#32)))
    (addi v (broadcastInDim S1700000 ![] bcast_S_S1700000 (constantI S_ 32 100000#32))) v

/-- The degree of every node: the number of edges (self-loops included) that end in it. -/
def degT (dst : (⟨S1700000, .i32⟩ : BufTy).Contents (Elt Ideal)) : (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))

/-- A guarded value: `rs` where `pos` holds, the scalar `z` elsewhere. -/
def dinvOf (pos : (⟨S100000, .i1⟩ : BufTy).Contents (Elt Ideal)) (rs : (⟨S100000, .f32⟩ : BufTy).Contents (Elt Ideal)) (z : (⟨S_, .f32⟩ : BufTy).Contents (Elt Ideal)) : (⟨S100000, .f32⟩ : BufTy).Contents (Elt Ideal) :=
  select pos rs (broadcastInDim S100000 ![] bcast_S_S100000 (id z))

/-- deg^(-1/2) where the degree is positive, 0 elsewhere. -/
def dinvT (dst : (⟨S1700000, .i32⟩ : BufTy).Contents (Elt Ideal)) : (⟨S100000, .f32⟩ : BufTy).Contents (Elt Ideal) :=
  dinvOf (cmpf (F := Ideal) .ogt (degT dst) (broadcastInDim S100000 ![] bcast_S_S100000 (constant (F := Ideal) S_ .f32 0x00000000#32)))
    (Host.rsqrt (F := Ideal) (φ := .f32) (degT dst)) (constant (F := Ideal) S_ .f32 0x00000000#32)

/-- The weight of every edge from the nodes' values `dinv`: dinv at its source times dinv at its target. -/
def nrmOf (dinv : (⟨S100000, .f32⟩ : BufTy).Contents (Elt Ideal)) (src dst : (⟨S1700000, .i32⟩ : BufTy).Contents (Elt Ideal)) : (⟨S1700000, .f32⟩ : BufTy).Contents (Elt Ideal) :=
  mulf (F := Ideal) (φ := .f32)
    (Host.gather gather_S100000_S1700000x1_S1700000_n_0_n_n_0_1_1 dinv
      (broadcastInDim S1700000x1 ![0] bcast_S1700000_S1700000x1_0 (wrapT src)))
    (Host.gather gather_S100000_S1700000x1_S1700000_n_0_n_n_0_1_1 dinv
      (broadcastInDim S1700000x1 ![0] bcast_S1700000_S1700000x1_0 (wrapT dst)))

/-- The weight of every edge: dinv at its source times dinv at its target. -/
def nrmT (src dst : (⟨S1700000, .i32⟩ : BufTy).Contents (Elt Ideal)) : (⟨S1700000, .f32⟩ : BufTy).Contents (Elt Ideal) := nrmOf (dinvT dst) src dst

/-- One layer's aggregation over the edges at width 64: the rows of `xw` gathered at the sources, scaled by the
    edges' weights, summed into the targets. -/
def aggT64 (src dst : (⟨S1700000, .i32⟩ : BufTy).Contents (Elt Ideal)) (nrm : (⟨S1700000, .f32⟩ : BufTy).Contents (Elt Ideal))
    (xw : (⟨S100000x64, .f32⟩ : BufTy).Contents (Elt Ideal)) : (⟨S100000x64, .f32⟩ : BufTy).Contents (Elt Ideal) :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (F := Ideal) (φ := .f32)
      (Host.gather gather_S100000x64_S1700000x1_S1700000x64_1_0_n_n_0_1_164 xw
        (broadcastInDim S1700000x1 ![0] bcast_S1700000_S1700000x1_0 (wrapT src)))
      (broadcastInDim S1700000x64 ![0, 1] bcast_S1700000x1_S1700000x64_0_1
        (broadcastInDim S1700000x1 ![0] bcast_S1700000_S1700000x1_0 nrm)))

/-- The same aggregation at width 16. -/
def aggT16 (src dst : (⟨S1700000, .i32⟩ : BufTy).Contents (Elt Ideal)) (nrm : (⟨S1700000, .f32⟩ : BufTy).Contents (Elt Ideal))
    (xw : (⟨S100000x16, .f32⟩ : BufTy).Contents (Elt Ideal)) : (⟨S100000x16, .f32⟩ : BufTy).Contents (Elt Ideal) :=
  Host.scatterAdd (F := Ideal) scatter_S100000x16_S1700000x1_S1700000x16_1_0_0_1
    (broadcastInDim S100000x16 ![] bcast_S_S100000x16 (constant (F := Ideal) S_ .f32 0x00000000#32))
    (broadcastInDim S1700000x1 ![0] bcast_S1700000_S1700000x1_0 dst)
    (mulf (F := Ideal) (φ := .f32)
      (Host.gather gather_S100000x16_S1700000x1_S1700000x16_1_0_n_n_0_1_116 xw
        (broadcastInDim S1700000x1 ![0] bcast_S1700000_S1700000x1_0 (wrapT src)))
      (broadcastInDim S1700000x16 ![0, 1] bcast_S1700000x1_S1700000x16_0_1
        (broadcastInDim S1700000x1 ![0] bcast_S1700000_S1700000x1_0 nrm)))

variable (m : (ℓ : Loc nD τ sig) → Buf (Elt Ideal) ℓ) (ρ : Dev nD → PrngReg)

/-! ## The first stretches of host operations: the graph's arrays -/

set_option maxHeartbeats 4000000 in
theorem w1_src (c : Dev nD) : W1 m ρ c (Proc.devRef .tc main_v3) = srcT (m ((c : Thread nD τ).loc main_arg1)) := by
  show StableHlo.after hostOps0 (W0 m ρ c) (Proc.devRef .tc main_v3) = _
  after_results_simp <;> rfl

set_option maxHeartbeats 4000000 in
theorem w1_dst (c : Dev nD) : W1 m ρ c (Proc.devRef .tc main_v6) = dstT (m ((c : Thread nD τ).loc main_arg1)) := by
  show StableHlo.after hostOps0 (W0 m ρ c) (Proc.devRef .tc main_v6) = _
  after_results_simp <;> rfl

set_option maxHeartbeats 4000000 in
theorem w1_pos (c : Dev nD) : W1 m ρ c (Proc.devRef .tc main_v12)
    = cmpf (F := Ideal) .ogt (degT (dstT (m ((c : Thread nD τ).loc main_arg1))))
        (broadcastInDim S100000 ![] bcast_S_S100000 (constant (F := Ideal) S_ .f32 0x00000000#32)) := by
  show StableHlo.after hostOps0 (W0 m ρ c) (Proc.devRef .tc main_v12) = _
  after_results_simp <;> rfl

set_option maxHeartbeats 4000000 in
theorem w1_rs (c : Dev nD) : W1 m ρ c (Proc.devRef .tc main_v13)
    = Host.rsqrt (F := Ideal) (φ := .f32) (degT (dstT (m ((c : Thread nD τ).loc main_arg1)))) := by
  show StableHlo.after hostOps0 (W0 m ρ c) (Proc.devRef .tc main_v13) = _
  after_results_simp <;> rfl

theorem w1_zero (c : Dev nD) : W1 m ρ c (Proc.devRef .tc main_cst_2) = constant (F := Ideal) S_ .f32 0x00000000#32 := by
  show StableHlo.after hostOps0 (W0 m ρ c) (Proc.devRef .tc main_cst_2) = _
  after_results_simp <;> rfl

/-- The guarded reciprocal square root, for any contents of the buffers it reads. -/
theorem dinv_stage (V : Valuation τ sig (Elt Ideal)) : StableHlo.after hostOps0_1 V (Proc.devRef .tc main_v14)
    = dinvOf (V (Proc.devRef .tc main_v12)) (V (Proc.devRef .tc main_v13)) (V (Proc.devRef .tc main_cst_2)) := by
  after_results_simp <;> rfl

theorem w2_dinv (c : Dev nD) : W2 m ρ c (Proc.devRef .tc main_v14)
    = dinvOf (W1 m ρ c (Proc.devRef .tc main_v12)) (W1 m ρ c (Proc.devRef .tc main_v13)) (W1 m ρ c (Proc.devRef .tc main_cst_2)) :=
  dinv_stage (W1 m ρ c)

theorem w2_k_v3 (c : Dev nD) : W2 m ρ c (Proc.devRef .tc main_v3) = W1 m ρ c (Proc.devRef .tc main_v3) := by
  show StableHlo.after hostOps0_1 (W1 m ρ c) (Proc.devRef .tc main_v3) = _
  after_results_simp
theorem w2_k_v6 (c : Dev nD) : W2 m ρ c (Proc.devRef .tc main_v6) = W1 m ρ c (Proc.devRef .tc main_v6) := by
  show StableHlo.after hostOps0_1 (W1 m ρ c) (Proc.devRef .tc main_v6) = _
  after_results_simp

set_option maxHeartbeats 4000000 in
theorem w3_nrm0 (c : Dev nD) : W3 m ρ c (Proc.devRef .tc main_v29)
    = nrmOf (W2 m ρ c (Proc.devRef .tc main_v14)) (W2 m ρ c (Proc.devRef .tc main_v3)) (W2 m ρ c (Proc.devRef .tc main_v6)) := by
  show StableHlo.after hostOps0_2 (W2 m ρ c) (Proc.devRef .tc main_v29) = _
  after_results_simp <;> rfl

theorem w3_k_v3 (c : Dev nD) : W3 m ρ c (Proc.devRef .tc main_v3) = W2 m ρ c (Proc.devRef .tc main_v3) := by
  show StableHlo.after hostOps0_2 (W2 m ρ c) (Proc.devRef .tc main_v3) = _
  after_results_simp
theorem w3_k_v6 (c : Dev nD) : W3 m ρ c (Proc.devRef .tc main_v6) = W2 m ρ c (Proc.devRef .tc main_v6) := by
  show StableHlo.after hostOps0_2 (W2 m ρ c) (Proc.devRef .tc main_v6) = _
  after_results_simp

/-- At the first region's entry: the sources, -/
theorem w3_src (c : Dev nD) : W3 m ρ c (Proc.devRef .tc main_v3) = srcT (m ((c : Thread nD τ).loc main_arg1)) := by
  rw [w3_k_v3, w2_k_v3, w1_src]
/-- the targets, -/
theorem w3_dst (c : Dev nD) : W3 m ρ c (Proc.devRef .tc main_v6) = dstT (m ((c : Thread nD τ).loc main_arg1)) := by
  rw [w3_k_v6, w2_k_v6, w1_dst]
/-- and the edges' weights. -/
theorem w3_nrm (c : Dev nD) : W3 m ρ c (Proc.devRef .tc main_v29)
    = nrmT (srcT (m ((c : Thread nD τ).loc main_arg1))) (dstT (m ((c : Thread nD τ).loc main_arg1))) := by
  rw [w3_nrm0, w2_dinv, w2_k_v3, w2_k_v6, w1_src, w1_dst, w1_pos, w1_rs, w1_zero]
  rfl

/-! ## The arguments are still as launched when the first region is entered -/

theorem w3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem w3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem w3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem w3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem w3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem w3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem w3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## Buffers a segment does not write keep their contents -/

theorem w4_k_v3 (c : Dev nD) : W4 m ρ c (Proc.devRef .tc main_v3) = W3 m ρ c (Proc.devRef .tc main_v3) := W4_of_ne m ρ c main_v3 (by decide)
theorem w4_k_v6 (c : Dev nD) : W4 m ρ c (Proc.devRef .tc main_v6) = W3 m ρ c (Proc.devRef .tc main_v6) := W4_of_ne m ρ c main_v6 (by decide)
theorem w4_k_v29 (c : Dev nD) : W4 m ρ c (Proc.devRef .tc main_v29) = W3 m ρ c (Proc.devRef .tc main_v29) := W4_of_ne m ρ c main_v29 (by decide)
theorem w4_k_arg3 (c : Dev nD) : W4 m ρ c (Proc.devRef .tc main_arg3) = W3 m ρ c (Proc.devRef .tc main_arg3) := W4_of_ne m ρ c main_arg3 (by decide)
theorem w4_k_arg4 (c : Dev nD) : W4 m ρ c (Proc.devRef .tc main_arg4) = W3 m ρ c (Proc.devRef .tc main_arg4) := W4_of_ne m ρ c main_arg4 (by decide)
theorem w4_k_arg5 (c : Dev nD) : W4 m ρ c (Proc.devRef .tc main_arg5) = W3 m ρ c (Proc.devRef .tc main_arg5) := W4_of_ne m ρ c main_arg5 (by decide)
theorem w4_k_arg6 (c : Dev nD) : W4 m ρ c (Proc.devRef .tc main_arg6) = W3 m ρ c (Proc.devRef .tc main_arg6) := W4_of_ne m ρ c main_arg6 (by decide)
theorem w4_k_arg7 (c : Dev nD) : W4 m ρ c (Proc.devRef .tc main_arg7) = W3 m ρ c (Proc.devRef .tc main_arg7) := W4_of_ne m ρ c main_arg7 (by decide)
theorem w5_k_v3 (c : Dev nD) : W5 m ρ c (Proc.devRef .tc main_v3) = W4 m ρ c (Proc.devRef .tc main_v3) := by
  show StableHlo.after hostOps1 (W4 m ρ c) (Proc.devRef .tc main_v3) = _
  after_results_simp
theorem w5_k_v6 (c : Dev nD) : W5 m ρ c (Proc.devRef .tc main_v6) = W4 m ρ c (Proc.devRef .tc main_v6) := by
  show StableHlo.after hostOps1 (W4 m ρ c) (Proc.devRef .tc main_v6) = _
  after_results_simp
theorem w5_k_v29 (c : Dev nD) : W5 m ρ c (Proc.devRef .tc main_v29) = W4 m ρ c (Proc.devRef .tc main_v29) := by
  show StableHlo.after hostOps1 (W4 m ρ c) (Proc.devRef .tc main_v29) = _
  after_results_simp
theorem w5_k_arg4 (c : Dev nD) : W5 m ρ c (Proc.devRef .tc main_arg4) = W4 m ρ c (Proc.devRef .tc main_arg4) := by
  show StableHlo.after hostOps1 (W4 m ρ c) (Proc.devRef .tc main_arg4) = _
  after_results_simp
theorem w5_k_arg5 (c : Dev nD) : W5 m ρ c (Proc.devRef .tc main_arg5) = W4 m ρ c (Proc.devRef .tc main_arg5) := by
  show StableHlo.after hostOps1 (W4 m ρ c) (Proc.devRef .tc main_arg5) = _
  after_results_simp
theorem w5_k_arg6 (c : Dev nD) : W5 m ρ c (Proc.devRef .tc main_arg6) = W4 m ρ c (Proc.devRef .tc main_arg6) := by
  show StableHlo.after hostOps1 (W4 m ρ c) (Proc.devRef .tc main_arg6) = _
  after_results_simp
theorem w5_k_arg7 (c : Dev nD) : W5 m ρ c (Proc.devRef .tc main_arg7) = W4 m ρ c (Proc.devRef .tc main_arg7) := by
  show StableHlo.after hostOps1 (W4 m ρ c) (Proc.devRef .tc main_arg7) = _
  after_results_simp
theorem w6_k_v3 (c : Dev nD) : W6 m ρ c (Proc.devRef .tc main_v3) = W5 m ρ c (Proc.devRef .tc main_v3) := W6_of_ne m ρ c main_v3 (by decide)
theorem w6_k_v6 (c : Dev nD) : W6 m ρ c (Proc.devRef .tc main_v6) = W5 m ρ c (Proc.devRef .tc main_v6) := W6_of_ne m ρ c main_v6 (by decide)
theorem w6_k_v29 (c : Dev nD) : W6 m ρ c (Proc.devRef .tc main_v29) = W5 m ρ c (Proc.devRef .tc main_v29) := W6_of_ne m ρ c main_v29 (by decide)
theorem w6_k_arg4 (c : Dev nD) : W6 m ρ c (Proc.devRef .tc main_arg4) = W5 m ρ c (Proc.devRef .tc main_arg4) := W6_of_ne m ρ c main_arg4 (by decide)
theorem w6_k_arg5 (c : Dev nD) : W6 m ρ c (Proc.devRef .tc main_arg5) = W5 m ρ c (Proc.devRef .tc main_arg5) := W6_of_ne m ρ c main_arg5 (by decide)
theorem w6_k_arg6 (c : Dev nD) : W6 m ρ c (Proc.devRef .tc main_arg6) = W5 m ρ c (Proc.devRef .tc main_arg6) := W6_of_ne m ρ c main_arg6 (by decide)
theorem w6_k_arg7 (c : Dev nD) : W6 m ρ c (Proc.devRef .tc main_arg7) = W5 m ρ c (Proc.devRef .tc main_arg7) := W6_of_ne m ρ c main_arg7 (by decide)
theorem w7_k_v3 (c : Dev nD) : W7 m ρ c (Proc.devRef .tc main_v3) = W6 m ρ c (Proc.devRef .tc main_v3) := W7_of_ne m ρ c main_v3 (by decide)
theorem w7_k_v6 (c : Dev nD) : W7 m ρ c (Proc.devRef .tc main_v6) = W6 m ρ c (Proc.devRef .tc main_v6) := W7_of_ne m ρ c main_v6 (by decide)
theorem w7_k_v29 (c : Dev nD) : W7 m ρ c (Proc.devRef .tc main_v29) = W6 m ρ c (Proc.devRef .tc main_v29) := W7_of_ne m ρ c main_v29 (by decide)
theorem w7_k_arg5 (c : Dev nD) : W7 m ρ c (Proc.devRef .tc main_arg5) = W6 m ρ c (Proc.devRef .tc main_arg5) := W7_of_ne m ρ c main_arg5 (by decide)
theorem w7_k_arg6 (c : Dev nD) : W7 m ρ c (Proc.devRef .tc main_arg6) = W6 m ρ c (Proc.devRef .tc main_arg6) := W7_of_ne m ρ c main_arg6 (by decide)
theorem w7_k_arg7 (c : Dev nD) : W7 m ρ c (Proc.devRef .tc main_arg7) = W6 m ρ c (Proc.devRef .tc main_arg7) := W7_of_ne m ρ c main_arg7 (by decide)
theorem w8_k_v3 (c : Dev nD) : W8 m ρ c (Proc.devRef .tc main_v3) = W7 m ρ c (Proc.devRef .tc main_v3) := by
  show StableHlo.after hostOps3 (W7 m ρ c) (Proc.devRef .tc main_v3) = _
  after_results_simp
theorem w8_k_v6 (c : Dev nD) : W8 m ρ c (Proc.devRef .tc main_v6) = W7 m ρ c (Proc.devRef .tc main_v6) := by
  show StableHlo.after hostOps3 (W7 m ρ c) (Proc.devRef .tc main_v6) = _
  after_results_simp
theorem w8_k_v29 (c : Dev nD) : W8 m ρ c (Proc.devRef .tc main_v29) = W7 m ρ c (Proc.devRef .tc main_v29) := by
  show StableHlo.after hostOps3 (W7 m ρ c) (Proc.devRef .tc main_v29) = _
  after_results_simp
theorem w8_k_arg6 (c : Dev nD) : W8 m ρ c (Proc.devRef .tc main_arg6) = W7 m ρ c (Proc.devRef .tc main_arg6) := by
  show StableHlo.after hostOps3 (W7 m ρ c) (Proc.devRef .tc main_arg6) = _
  after_results_simp
theorem w8_k_arg7 (c : Dev nD) : W8 m ρ c (Proc.devRef .tc main_arg7) = W7 m ρ c (Proc.devRef .tc main_arg7) := by
  show StableHlo.after hostOps3 (W7 m ρ c) (Proc.devRef .tc main_arg7) = _
  after_results_simp
theorem w9_k_v3 (c : Dev nD) : W9 m ρ c (Proc.devRef .tc main_v3) = W8 m ρ c (Proc.devRef .tc main_v3) := W9_of_ne m ρ c main_v3 (by decide)
theorem w9_k_v6 (c : Dev nD) : W9 m ρ c (Proc.devRef .tc main_v6) = W8 m ρ c (Proc.devRef .tc main_v6) := W9_of_ne m ρ c main_v6 (by decide)
theorem w9_k_v29 (c : Dev nD) : W9 m ρ c (Proc.devRef .tc main_v29) = W8 m ρ c (Proc.devRef .tc main_v29) := W9_of_ne m ρ c main_v29 (by decide)
theorem w9_k_arg6 (c : Dev nD) : W9 m ρ c (Proc.devRef .tc main_arg6) = W8 m ρ c (Proc.devRef .tc main_arg6) := W9_of_ne m ρ c main_arg6 (by decide)
theorem w9_k_arg7 (c : Dev nD) : W9 m ρ c (Proc.devRef .tc main_arg7) = W8 m ρ c (Proc.devRef .tc main_arg7) := W9_of_ne m ρ c main_arg7 (by decide)
theorem w10_k_v3 (c : Dev nD) : W10 m ρ c (Proc.devRef .tc main_v3) = W9 m ρ c (Proc.devRef .tc main_v3) := W10_of_ne m ρ c main_v3 (by decide)
theorem w10_k_v6 (c : Dev nD) : W10 m ρ c (Proc.devRef .tc main_v6) = W9 m ρ c (Proc.devRef .tc main_v6) := W10_of_ne m ρ c main_v6 (by decide)
theorem w10_k_v29 (c : Dev nD) : W10 m ρ c (Proc.devRef .tc main_v29) = W9 m ρ c (Proc.devRef .tc main_v29) := W10_of_ne m ρ c main_v29 (by decide)
theorem w10_k_arg7 (c : Dev nD) : W10 m ρ c (Proc.devRef .tc main_arg7) = W9 m ρ c (Proc.devRef .tc main_arg7) := W10_of_ne m ρ c main_arg7 (by decide)

/-! ## What each segment writes -/

theorem w4_v30 (c : Dev nD) : W4 m ρ c (Proc.devRef .tc main_v30)
    = matProd (W3 m ρ c (Proc.devRef .tc main_arg0)) (W3 m ρ c (Proc.devRef .tc main_arg2)) :=
  (W4_arr m ρ c 2).trans (final0 (V3 m ρ) c)

set_option maxHeartbeats 4000000 in
theorem w5_v43 (c : Dev nD) : W5 m ρ c (Proc.devRef .tc main_v43)
    = aggT64 (W4 m ρ c (Proc.devRef .tc main_v3)) (W4 m ρ c (Proc.devRef .tc main_v6)) (W4 m ρ c (Proc.devRef .tc main_v29)) (W4 m ρ c (Proc.devRef .tc main_v30)) := by
  show StableHlo.after hostOps1 (W4 m ρ c) (Proc.devRef .tc main_v43) = _
  after_results_simp <;> rfl

theorem w5_v44 (c : Dev nD) : W5 m ρ c (Proc.devRef .tc main_v44)
    = shapeCast S1x64 (W4 m ρ c (Proc.devRef .tc main_arg3)) shapeCasts_S64_S1x64 := by
  show StableHlo.after hostOps1 (W4 m ρ c) (Proc.devRef .tc main_v44) = _
  after_results_simp <;> rfl

theorem w6_v45 (c : Dev nD) : W6 m ρ c (Proc.devRef .tc main_v45)
    = reluArr (addRow (W5 m ρ c (Proc.devRef .tc main_v43)) (W5 m ρ c (Proc.devRef .tc main_v44))) :=
  (W6_arr m ρ c 2).trans (final1 (V5 m ρ) c)

theorem w7_v46 (c : Dev nD) : W7 m ρ c (Proc.devRef .tc main_v46)
    = matProd (W6 m ρ c (Proc.devRef .tc main_v45)) (W6 m ρ c (Proc.devRef .tc main_arg4)) :=
  (W7_arr m ρ c 2).trans (final2 (V6 m ρ) c)

set_option maxHeartbeats 4000000 in
theorem w8_v59 (c : Dev nD) : W8 m ρ c (Proc.devRef .tc main_v59)
    = aggT64 (W7 m ρ c (Proc.devRef .tc main_v3)) (W7 m ρ c (Proc.devRef .tc main_v6)) (W7 m ρ c (Proc.devRef .tc main_v29)) (W7 m ρ c (Proc.devRef .tc main_v46)) := by
  show StableHlo.after hostOps3 (W7 m ρ c) (Proc.devRef .tc main_v59) = _
  after_results_simp <;> rfl

theorem w8_v60 (c : Dev nD) : W8 m ρ c (Proc.devRef .tc main_v60)
    = shapeCast S1x64 (W7 m ρ c (Proc.devRef .tc main_arg5)) shapeCasts_S64_S1x64 := by
  show StableHlo.after hostOps3 (W7 m ρ c) (Proc.devRef .tc main_v60) = _
  after_results_simp <;> rfl

theorem w9_v61 (c : Dev nD) : W9 m ρ c (Proc.devRef .tc main_v61)
    = reluArr (addRow (W8 m ρ c (Proc.devRef .tc main_v59)) (W8 m ρ c (Proc.devRef .tc main_v60))) :=
  (W9_arr m ρ c 2).trans (final3 (V8 m ρ) c)

theorem w10_v62 (c : Dev nD) : W10 m ρ c (Proc.devRef .tc main_v62)
    = matProd (W9 m ρ c (Proc.devRef .tc main_v61)) (W9 m ρ c (Proc.devRef .tc main_arg6)) :=
  (W10_arr m ρ c 2).trans (final4 (V9 m ρ) c)

set_option maxHeartbeats 4000000 in
theorem w11_v75 (c : Dev nD) : W11 m ρ c (Proc.devRef .tc main_v75)
    = aggT16 (W10 m ρ c (Proc.devRef .tc main_v3)) (W10 m ρ c (Proc.devRef .tc main_v6)) (W10 m ρ c (Proc.devRef .tc main_v29)) (W10 m ρ c (Proc.devRef .tc main_v62)) := by
  show StableHlo.after hostOps5 (W10 m ρ c) (Proc.devRef .tc main_v75) = _
  after_results_simp <;> rfl

theorem w11_v76 (c : Dev nD) : W11 m ρ c (Proc.devRef .tc main_v76)
    = shapeCast S1x16 (W10 m ρ c (Proc.devRef .tc main_arg7)) shapeCasts_S16_S1x16 := by
  show StableHlo.after hostOps5 (W10 m ρ c) (Proc.devRef .tc main_v76) = _
  after_results_simp <;> rfl

theorem w12_v77 (c : Dev nD) : W12 m ρ c (Proc.devRef .tc main_v77)
    = addRow (W11 m ρ c (Proc.devRef .tc main_v75)) (W11 m ρ c (Proc.devRef .tc main_v76)) :=
  (W12_arr m ρ c 2).trans (final5 (V11 m ρ) c)

/-! ## The composition -/

/-- The three layers, as one function of the eight arguments. -/
def layers (x : (⟨S100000x128, .f32⟩ : BufTy).Contents (Elt Ideal)) (ei : (⟨S2x1600000, .i32⟩ : BufTy).Contents (Elt Ideal))
    (w1 : (⟨S128x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal))
    (w3 : (⟨S64x16, .f32⟩ : BufTy).Contents (Elt Ideal)) (b3 : (⟨S16, .f32⟩ : BufTy).Contents (Elt Ideal)) : (⟨S100000x16, .f32⟩ : BufTy).Contents (Elt Ideal) :=
  addRow (aggT16 (srcT ei) (dstT ei) (nrmT (srcT ei) (dstT ei))
      (matProd (reluArr (addRow (aggT64 (srcT ei) (dstT ei) (nrmT (srcT ei) (dstT ei))
          (matProd (reluArr (addRow (aggT64 (srcT ei) (dstT ei) (nrmT (srcT ei) (dstT ei)) (matProd x w1))
              (shapeCast S1x64 b1 shapeCasts_S64_S1x64))) w2))
          (shapeCast S1x64 b2 shapeCasts_S64_S1x64))) w3))
    (shapeCast S1x16 b3 shapeCasts_S16_S1x16)

/-- The result array after the run is the three layers of the launch contents of the arguments. -/
theorem result (c : Dev nD) : W12 m ρ c (Proc.devRef .tc main_v77)
    = layers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [w12_v77, w11_v75, w11_v76, w10_v62, w9_v61, w8_v59, w8_v60, w7_v46, w6_v45, w5_v43, w5_v44, w4_v30]
  rw [w10_k_v3, w9_k_v3, w8_k_v3, w7_k_v3, w6_k_v3, w5_k_v3, w4_k_v3, w10_k_v6, w9_k_v6, w8_k_v6, w7_k_v6, w6_k_v6, w5_k_v6, w4_k_v6, w10_k_v29, w9_k_v29, w8_k_v29, w7_k_v29, w6_k_v29, w5_k_v29, w4_k_v29,
    w10_k_arg7, w9_k_arg7, w8_k_arg7, w7_k_arg7, w6_k_arg7, w5_k_arg7, w4_k_arg7, w9_k_arg6, w8_k_arg6, w7_k_arg6, w6_k_arg6, w5_k_arg6, w4_k_arg6, w7_k_arg5, w6_k_arg5, w5_k_arg5, w4_k_arg5,
    w6_k_arg4, w5_k_arg4, w4_k_arg4, w4_k_arg3]
  rw [w3_src, w3_dst, w3_nrm, w3_arg0, w3_arg2, w3_arg3, w3_arg4, w3_arg5, w3_arg6, w3_arg7]
  rfl

end Cert.KernelIdeal.Fold

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«135846_j87875030876624_1_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«135846_j87875030876624_1_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.Glue.lean ====
/-
  The reference program's result is the same three layers.

  The reference spells a layer with host operations only: a `dot_general` for the product with the weight matrix, the same
  gather, scale and scatter-add over the edges as the kernel program, the bias vector broadcast to one row and then over
  all rows and added, and the maximum with the zero constant broadcast to the whole matrix. On the extended reals each of
  these is, entry by entry, the matrix product ∑ k, X[r, k] · W[k, e], the addition of the bias as a row, and max(·, 0):
  the same sums and maxima, so no finiteness is used. With the three pieces rewritten, the reference's composed term is,
  operation for operation, the kernel program's composition of its nine steps; the aggregation over the edges is the same
  text on both sides and is never opened.
-/
import proofs.«135846_j87875030876624_1_alg».proof.Proof.RefRun
import proofs.«135846_j87875030876624_1_alg».proof.Proof.KFold
import proofs.«135846_j87875030876624_1_alg».proof.Proof.Spec
import proofs.«135846_j87875030876624_1_alg».proof.Proof.LibHostDenseRows
import Idealize.ShloMosaic.Lib.ValueIdx
import Idealize.ShloMosaic.PureOps.Ideal.Laws

set_option maxRecDepth 16384

noncomputable section

namespace Cert.Bridge

open Idealize.ShloMosaic Idealize.ShloMosaic.ValueIdx Idealize.ShloMosaic.TcCoe Idealize.SL.Sem
open Cert.GcnSpec Cert.LibDenseRows Cert.LibHostDenseRows

/-! ## The three pieces, for any extents -/

/-- A plain host product of whole matrices is the matrix product, entry by entry. -/
theorem hostDot_eq_matProd {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) :
    Host.dotGeneral (F := Ideal) d none x w = matProd x w := by
  funext i
  obtain ⟨r, e, rfl⟩ : ∃ (r : Fin M) (e : Fin N), i = ix2 r e := ⟨i 0, i 1, eq_ix2 i⟩
  exact hostDot_plain_apply d hd none x w r e

/-- A bias vector broadcast to one row and then over all rows, added: the vector recast as a row, added to every row. -/
theorem hostBias_eq_addRow {M N : ℕ} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨r, e, rfl⟩ : ∃ (r : Fin M) (e : Fin N), i = ix2 r e := ⟨i 0, i 1, eq_ix2 i⟩
  show a (ix2 r e) + rows (broadcastInDim ⟨2, ![M, N]⟩ ![0, 1] h2 (broadcastInDim ⟨2, ![1, N]⟩ ![1] h1 b)) r e
    = a (ix2 r e) + rows (shapeCast ⟨2, ![1, N]⟩ b hc) (0 : Fin 1) e
  rw [rows_broadcast_vec b h1 h2 r, rows_shapeCast_vec b hc]

/-- The maximum with the zero constant broadcast to the whole matrix is the entrywise maximum with 0. -/
theorem hostRelu_eq_reluArr {M N : ℕ} (v : FVec Ideal ⟨2, ![M, N]⟩ .f32)
    (h : (⟨0, ![]⟩ : Shape).BroadcastsInDim ⟨2, ![M, N]⟩ ![]) :
    maximumf v (broadcastInDim ⟨2, ![M, N]⟩ ![] h (constant (F := Ideal) ⟨0, ![]⟩ .f32 0x00000000#32)) = reluArr v := by
  funext i
  obtain ⟨r, e, rfl⟩ : ∃ (r : Fin M) (e : Fin N), i = ix2 r e := ⟨i 0, i 1, eq_ix2 i⟩
  exact congrFun (rows_max_zero_const v h r) e

/-! ## The reference's composed term -/

open Cert.ReferenceIdeal in
set_option maxHeartbeats 8000000 in
/-- The reference's result, as its run states it, is the three layers of its arguments. -/
theorem ref_eq_layers (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v82 (F := Ideal) m c
      = Cert.KernelIdeal.Fold.layers (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) := by
  unfold Cert.ReferenceIdeal.ValueP.res_main_v82
  rw [hostBias_eq_addRow _ _ Gen.bcast_S16_S1x16_1 Gen.bcast_S1x16_S100000x16_0_1 Cert.KernelIdeal.Gen.shapeCasts_S16_S1x16,
    hostDot_eq_matProd dot_S100000x64_S64x16_S100000x16_1_0_0_1_n_n rfl,
    hostRelu_eq_reluArr _ Gen.bcast_S_S100000x64,
    hostBias_eq_addRow _ _ Gen.bcast_S64_S1x64_1 Gen.bcast_S1x64_S100000x64_0_1 Cert.KernelIdeal.Gen.shapeCasts_S64_S1x64,
    hostDot_eq_matProd dot_S100000x64_S64x64_S100000x64_1_0_0_1_n_n rfl,
    hostRelu_eq_reluArr _ Gen.bcast_S_S100000x64,
    hostBias_eq_addRow _ _ Gen.bcast_S64_S1x64_1 Gen.bcast_S1x64_S100000x64_0_1 Cert.KernelIdeal.Gen.shapeCasts_S64_S1x64,
    hostDot_eq_matProd dot_S100000x128_S128x64_S100000x64_1_0_0_1_n_n rfl]
  rfl

end Cert.Bridge

end
-- ==== Proof.lean ====
/-
  Two programs for a three-layer graph convolution, equal on the extended reals.

  Both programs build the same graph arrays from the edge list (sources, targets, degrees, the symmetric normalisation
  weight of every edge) and both aggregate every layer's transformed features over the edges by the same gather, scale and
  scatter-add. They differ in how a layer's two dense steps are spelt. The kernel program multiplies the node features by
  the weight matrix in a pipelined region, ten blocks of 10000 rows against the whole weight matrix, each block's product
  accumulated into zero; the reference takes one host product of the whole matrices. Entry (r, e) of either is
  ∑ k, X[r, k] · W[k, e]: a block of rows of a product is the product of the block of rows. The kernel program adds the
  bias, recast as one row, to every row of a block and takes the maximum with 0 in a second pipelined region; the reference
  broadcasts the bias over all rows, adds, and takes the maximum with the broadcast zero constant: entry by entry the same
  sum and the same maximum. A change of float format is the identity on the extended reals. The two results are therefore
  the same composition of the same nine steps, with no use of finiteness; the aggregation is never opened.
  The ideal pass rewrote no operation of the kernel, so the idealization claim is trivial; the three frames are the programs'
  runs with only the argument arrays kept.
-/
import proofs.«135846_j87875030876624_1_alg».proof.Defs
import proofs.«135846_j87875030876624_1_alg».proof.Proof.Gen.Kernel
import proofs.«135846_j87875030876624_1_alg».proof.Proof.Gen.Kernel.Frame
import proofs.«135846_j87875030876624_1_alg».proof.Proof.Gen.KernelIdeal
import proofs.«135846_j87875030876624_1_alg».proof.Proof.Gen.KernelIdeal.Frame
import proofs.«135846_j87875030876624_1_alg».proof.Proof.Gen.ReferenceIdeal
import proofs.«135846_j87875030876624_1_alg».proof.Proof.Gen.Pre_finite_inputs
import proofs.«135846_j87875030876624_1_alg».proof.Proof.KRun
import proofs.«135846_j87875030876624_1_alg».proof.Proof.RefRun
import proofs.«135846_j87875030876624_1_alg».proof.Proof.KFold
import proofs.«135846_j87875030876624_1_alg».proof.Proof.Glue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read on the extended reals. -/
theorem preserves : Cert.preserves_Kernel_KernelIdeal := trivial

/-- Both runs end with the result array at the three layers of the (agreeing) arguments. -/
theorem algebraic : Cert.algebraic_KernelIdeal_ReferenceIdeal := by
  intro m ρ m' ρ' _ hagree
  refine ⟨fun c => Cert.KernelIdeal.Gen.W12 m ρ c (Proc.devRef .tc Cert.KernelIdeal.main_v77), Cert.KernelIdeal.GenP.run_named (F := Ideal) m ρ, ?_⟩
  refine (θ_run Cert.ReferenceIdeal.defs _ _).mono (fun _ h c => ⟨(h c).1.trans ?_, (h c).2⟩) (Cert.ReferenceIdeal.ValueP.run (F := Ideal) m' ρ')
  rw [Cert.Bridge.ref_eq_layers m' c, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
